-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x512 : Shape := ⟨3, ![8, 256, 512]⟩
abbrev S8x64x512 : Shape := ⟨3, ![8, 64, 512]⟩
abbrev S512x512 : Shape := ⟨2, ![512, 512]⟩
abbrev S512 : Shape := ⟨1, ![512]⟩
abbrev S500x512 : Shape := ⟨2, ![500, 512]⟩
abbrev S500 : Shape := ⟨1, ![500]⟩
abbrev S_ : Shape := ⟨0, ![]⟩

class Facts : Prop where
  bcast_S_S8x256x512 : S_.BroadcastsInDim S8x256x512 (![] : Fin 0 → Fin S8x256x512.rank)
  reducesTo_S8x256x512_S_d0_1_2 : S8x256x512.ReducesTo [0, 1, 2] S_
  h_S_ : 0 < S_.numel
  bcast_S_S8x64x512 : S_.BroadcastsInDim S8x64x512 (![] : Fin 0 → Fin S8x64x512.rank)
  reducesTo_S8x64x512_S_d0_1_2 : S8x64x512.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S500x512 : S_.BroadcastsInDim S500x512 (![] : Fin 0 → Fin S500x512.rank)
  reducesTo_S500x512_S_d0_1 : S500x512.ReducesTo [0, 1] S_
  bcast_S_S500 : S_.BroadcastsInDim S500 (![] : Fin 0 → Fin S500.rank)
  reducesTo_S500_S_d0 : S500.ReducesTo [0] S_

variable [Facts]

def fn_part2 {F : FTy → Type} [FloatOps F] (main_arg7 : FVec F S500 .f32) (main_v33 : IVec S_ 1) : IVec S_ 1 :=
  let main_v34 : FVec F S500 .f32 := Host.absf main_arg7
  let main_cst_12 : FVec F S_ .f32 := constant S_ .f32 0x7F800000#32
  let main_v35 : FVec F S500 .f32 := broadcastInDim S500 ![] bcast_S_S500 main_cst_12
  let main_v36 : IVec S500 1 := cmpf .olt main_v34 main_v35
  let main_c_13 : IVec S_ 1 := constantI S_ 1 1#1
  let main_v37 : IVec S_ 1 := (fun x v => Host.reduce IntOp.andi x v reducesTo_S500_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S500x512 .f32) (main_arg7 : FVec F S500 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S500x512 .f32 := Host.absf main_arg6
  let main_cst_10 : FVec F S_ .f32 := constant S_ .f32 0x7F800000#32
  let main_v30 : FVec F S500x512 .f32 := broadcastInDim S500x512 ![] bcast_S_S500x512 main_cst_10
  let main_v31 : IVec S500x512 1 := cmpf .olt main_v29 main_v30
  let main_c_11 : IVec S_ 1 := constantI S_ 1 1#1
  let main_v32 : IVec S_ 1 := (fun x v => Host.reduce IntOp.andi x v reducesTo_S500x512_S_d0_1 h_S_) main_v31 main_c_11
  let main_v33 : IVec S_ 1 := andi main_v28 main_v32
  fn_part2 (F := F) main_arg7 main_v33

def fn {F : FTy → Type} [FloatOps F] (main_arg0 : FVec F S8x256x512 .f32) (main_arg1 : FVec F S8x64x512 .f32) (main_arg2 : FVec F S512x512 .f32) (main_arg3 : FVec F S512 .f32) (main_arg4 : FVec F S512x512 .f32) (main_arg5 : FVec F S512 .f32) (main_arg6 : FVec F S500x512 .f32) (main_arg7 : FVec F S500 .f32) : IVec S_ 1 :=
  let main_v0 : FVec F S8x256x512 .f32 := Host.absf main_arg0
  let main_cst : FVec F S_ .f32 := constant S_ .f32 0x7F800000#32
  let main_v1 : FVec F S8x256x512 .f32 := broadcastInDim S8x256x512 ![] bcast_S_S8x256x512 main_cst
  let main_v2 : IVec S8x256x512 1 := cmpf .olt main_v0 main_v1
  let main_c : IVec S_ 1 := constantI S_ 1 1#1
  let main_v3 : IVec S_ 1 := (fun x v => Host.reduce IntOp.andi x v reducesTo_S8x256x512_S_d0_1_2 h_S_) main_v2 main_c
  let main_v4 : FVec F S8x64x512 .f32 := Host.absf main_arg1
  let main_cst_0 : FVec F S_ .f32 := constant S_ .f32 0x7F800000#32
  let main_v5 : FVec F S8x64x512 .f32 := broadcastInDim S8x64x512 ![] bcast_S_S8x64x512 main_cst_0
  let main_v6 : IVec S8x64x512 1 := cmpf .olt main_v4 main_v5
  let main_c_1 : IVec S_ 1 := constantI S_ 1 1#1
  let main_v7 : IVec S_ 1 := (fun x v => Host.reduce IntOp.andi x v reducesTo_S8x64x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S8x256x512 : Shape := ⟨3, ![8, 256, 512]⟩
abbrev S8x64x512 : Shape := ⟨3, ![8, 64, 512]⟩
abbrev S512x512 : Shape := ⟨2, ![512, 512]⟩
abbrev S512 : Shape := ⟨1, ![512]⟩
abbrev S500x512 : Shape := ⟨2, ![500, 512]⟩
abbrev S500 : Shape := ⟨1, ![500]⟩
abbrev S512x500 : Shape := ⟨2, ![512, 500]⟩
abbrev S8x256x64x500 : Shape := ⟨4, ![8, 256, 64, 500]⟩
abbrev S1x32x512 : Shape := ⟨3, ![1, 32, 512]⟩
abbrev S1x64x512 : Shape := ⟨3, ![1, 64, 512]⟩
abbrev S1x32x64x500 : Shape := ⟨4, ![1, 32, 64, 500]⟩
abbrev S32x512 : Shape := ⟨2, ![32, 512]⟩
abbrev S1x512 : Shape := ⟨2, ![1, 512]⟩
abbrev S64x512 : Shape := ⟨2, ![64, 512]⟩
abbrev S32x1x512 : Shape := ⟨3, ![32, 1, 512]⟩
abbrev S32x64x512 : Shape := ⟨3, ![32, 64, 512]⟩
abbrev S2048x512 : Shape := ⟨2, ![2048, 512]⟩
abbrev S2048x500 : Shape := ⟨2, ![2048, 500]⟩
abbrev S32x64x500 : Shape := ⟨3, ![32, 64, 500]⟩
abbrev S1x1x500 : Shape := ⟨3, ![1, 1, 500]⟩

abbrev nBuf : Space → Nat
  | .hbm => 12
  | .vmem => 12
  | .smem => 0
  | _ => 0

abbrev bufTy : (tb : Table) → Fin (tcTables nBuf tb) → BufTy
  | .hbm, ⟨0, _⟩ => ⟨S8x256x512, .f32⟩
  | .hbm, ⟨1, _⟩ => ⟨S8x64x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S500x512, .f32⟩
  | .hbm, ⟨7, _⟩ => ⟨S500, .f32⟩
  | .hbm, ⟨8, _⟩ => ⟨S512x512, .f32⟩
  | .hbm, ⟨9, _⟩ => ⟨S512x512, .f32⟩
  | .hbm, ⟨10, _⟩ => ⟨S512x500, .f32⟩
  | .hbm, ⟨11, _⟩ => ⟨S8x256x64x500, .f32⟩
  | .local _ .vmem, ⟨0, _⟩ => ⟨S1x32x512, .f32⟩
  | .local _ .vmem, ⟨1, _⟩ => ⟨S1x32x512, .f32⟩
  | .local _ .vmem, ⟨2, _⟩ => ⟨S1x64x512, .f32⟩
  | .local _ .vmem, ⟨3, _⟩ => ⟨S1x64x512, .f32⟩
  | .local _ .vmem, ⟨4, _⟩ => ⟨S512x512, .f32⟩
  | .local _ .vmem, ⟨5, _⟩ => ⟨S512, .f32⟩
  | .local _ .vmem, ⟨6, _⟩ => ⟨S512x512, .f32⟩
  | .local _ .vmem, ⟨7, _⟩ => ⟨S512, .f32⟩
  | .local _ .vmem, ⟨8, _⟩ => ⟨S512x500, .f32⟩
  | .local _ .vmem, ⟨9, _⟩ => ⟨S500, .f32⟩
  | .local _ .vmem, ⟨10, _⟩ => ⟨S1x32x64x500, .f32⟩
  | .local _ .vmem, ⟨11, _⟩ => ⟨S1x32x64x500, .f32⟩
  | _, _ => ⟨S8x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x500 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S500 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x32x64x500 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  transposes_S512x512_S512x512_1_0 : S512x512.Transposes [1, 0] S512x512
  transposes_S500x512_S512x500_1_0 : S500x512.Transposes [1, 0] S512x500
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S32x512 : S1x512.Broadcasts S32x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  broadcasts_S1x512_S64x512 : S1x512.Broadcasts S64x512
  shapeCasts_S32x512_S32x1x512 : S32x512.ShapeCasts S32x1x512
  shapeCasts_S64x512_S1x64x512 : S64x512.ShapeCasts S1x64x512
  broadcasts_S32x1x512_S32x64x512 : S32x1x512.Broadcasts S32x64x512
  broadcasts_S1x64x512_S32x64x512 : S1x64x512.Broadcasts S32x64x512
  shapeCasts_S32x64x512_S2048x512 : S32x64x512.ShapeCasts S2048x512
  inb_S512x500_S512x500_0_0 : ∀ a, (![0, 0] : Fin 2 → Nat) a + S512x500.size a ≤ S512x500.size a
  h_S512x500 : 0 < S512x500.numel
  shapeCasts_S512x500_S512x500 : S512x500.ShapeCasts S512x500
  shapeCasts_S2048x500_S32x64x500 : S2048x500.ShapeCasts S32x64x500
  inb_S500_S500_0 : ∀ a, (![0] : Fin 1 → Nat) a + S500.size a ≤ S500.size a
  h_S500 : 0 < S500.numel
  shapeCasts_S500_S1x1x500 : S500.ShapeCasts S1x1x500
  broadcasts_S1x1x500_S32x64x500 : S1x1x500.Broadcasts S32x64x500
  inb_S1x32x64x500_S1x32x64x500_0_0_0_0 : ∀ a, (![0, 0, 0, 0] : Fin 4 → Nat) a + S1x32x64x500.size a ≤ S1x32x64x500.size a
  h_S1x32x64x500 : 0 < S1x32x64x500.numel
  shapeCasts_S1x32x64x500_S32x64x500 : S1x32x64x500.ShapeCasts S32x64x500
  shapeCasts_S32x64x500_S1x32x64x500 : S32x64x500.ShapeCasts S1x32x64x500
  dot_S32x512_S512x512_S32x512_1_0_0_1_n_n_wf : DotDims.WF S32x512 S512x512 S32x512 [1] [0] [0] [1] [] []
  dot_S64x512_S512x512_S64x512_1_0_0_1_n_n_wf : DotDims.WF S64x512 S512x512 S64x512 [1] [0] [0] [1] [] []
  dot_S2048x512_S512x500_S2048x500_1_0_0_1_n_n_wf : DotDims.WF S2048x512 S512x500 S2048x500 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x512.size a ≤ S8x256x512.size a
  hwx0_0 : ∀ i : grid0.Coords, EltTy.bits .f32 = 32 ∨ (Rect.block (s := S8x256x512) S1x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S8x64x512.size a
  hwx0_1 : ∀ i : grid0.Coords, EltTy.bits .f32 = 32 ∨ (Rect.block (s := S8x64x512) S1x64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x500.size a ≤ S512x500.size a
  hwx0_6 : ∀ i : grid0.Coords, EltTy.bits .f32 = 32 ∨ (Rect.block (s := S512x500) S512x500.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S500.size a ≤ S500.size a
  hwx0_7 : ∀ i : grid0.Coords, EltTy.bits .f32 = 32 ∨ (Rect.block (s := S500) S500.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x32x64x500.size a ≤ S8x256x64x500.size a
  hwx0_8 : ∀ i : grid0.Coords, EltTy.bits .f32 = 32 ∨ (Rect.block (s := S8x256x64x500) S1x32x64x500.size (cc0_transform_8 i) (hinb0_8 i)).WholeWords (EltTy.packing .f32)

variable [Facts₀]

def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S2048x512_S512x500_S2048x500_1_0_0_1_n_n : DotDims S2048x512 S512x500 S2048x500 where
  lhsContracting := [1]
  rhsContracting := [0]
  lhsNonContracting := [0]
  rhsNonContracting := [1]
  lhsBatch := []
  rhsBatch := []
  wf := dot_S2048x512_S512x500_S2048x500_1_0_0_1_n_n_wf

abbrev win0_0 : Pipeline.Window sig grid0 :=
  Pipeline.Window.ofSpec (Memref.whole main_arg0) S1x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S512x500.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S500.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x32x64x500.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x256x512 : Shape := ⟨3, ![8, 256, 512]⟩
abbrev S8x64x512 : Shape := ⟨3, ![8, 64, 512]⟩
abbrev S512x512 : Shape := ⟨2, ![512, 512]⟩
abbrev S512 : Shape := ⟨1, ![512]⟩
abbrev S500x512 : Shape := ⟨2, ![500, 512]⟩
abbrev S500 : Shape := ⟨1, ![500]⟩
abbrev S1x1x512 : Shape := ⟨3, ![1, 1, 512]⟩
abbrev S8x256x1x512 : Shape := ⟨4, ![8, 256, 1, 512]⟩
abbrev S8x1x64x512 : Shape := ⟨4, ![8, 1, 64, 512]⟩
abbrev S8x256x64x512 : Shape := ⟨4, ![8, 256, 64, 512]⟩
abbrev S8x256x64x500 : Shape := ⟨4, ![8, 256, 64, 500]⟩
abbrev S1x1x1x500 : Shape := ⟨4, ![1, 1, 1, 500]⟩

abbrev nBuf : Space → Nat
  | .hbm => 26
  | .vmem => 0
  | .smem => 0
  | _ => 0

abbrev bufTy : (tb : Table) → Fin (tcTables nBuf tb) → BufTy
  | .hbm, ⟨0, _⟩ => ⟨S8x256x512, .f32⟩
  | .hbm, ⟨1, _⟩ => ⟨S8x64x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S500x512, .f32⟩
  | .hbm, ⟨7, _⟩ => ⟨S500, .f32⟩
  | .hbm, ⟨8, _⟩ => ⟨S8x256x512, .f32⟩
  | .hbm, ⟨9, _⟩ => ⟨S1x1x512, .f32⟩
  | .hbm, ⟨10, _⟩ => ⟨S8x256x512, .f32⟩
  | .hbm, ⟨11, _⟩ => ⟨S8x256x512, .f32⟩
  | .hbm, ⟨12, _⟩ => ⟨S8x64x512, .f32⟩
  | .hbm, ⟨13, _⟩ => ⟨S1x1x512, .f32⟩
  | .hbm, ⟨14, _⟩ => ⟨S8x64x512, .f32⟩
  | .hbm, ⟨15, _⟩ => ⟨S8x64x512, .f32⟩
  | .hbm, ⟨16, _⟩ => ⟨S8x256x1x512, .f32⟩
  | .hbm, ⟨17, _⟩ => ⟨S8x1x64x512, .f32⟩
  | .hbm, ⟨18, _⟩ => ⟨S8x256x64x512, .f32⟩
  | .hbm, ⟨19, _⟩ => ⟨S8x256x64x512, .f32⟩
  | .hbm, ⟨20, _⟩ => ⟨S8x256x64x512, .f32⟩
  | .hbm, ⟨21, _⟩ => ⟨S8x256x64x512, .f32⟩
  | .hbm, ⟨22, _⟩ => ⟨S8x256x64x500, .f32⟩
  | .hbm, ⟨23, _⟩ => ⟨S1x1x1x500, .f32⟩
  | .hbm, ⟨24, _⟩ => ⟨S8x256x64x500, .f32⟩
  | .hbm, ⟨25, _⟩ => ⟨S8x256x64x500, .f32⟩
  | _, _ => ⟨S8x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S8x256x512_0_1_2 : S1x1x512.BroadcastsInDim S8x256x512 (![0, 1, 2] : Fin 3 → Fin S8x256x512.rank)
  bcast_S1x1x512_S8x64x512_0_1_2 : S1x1x512.BroadcastsInDim S8x64x512 (![0, 1, 2] : Fin 3 → Fin S8x64x512.rank)
  bcast_S8x256x512_S8x256x1x512_0_1_3 : S8x256x512.BroadcastsInDim S8x256x1x512 (![0, 1, 3] : Fin 3 → Fin S8x256x1x512.rank)
  bcast_S8x64x512_S8x1x64x512_0_2_3 : S8x64x512.BroadcastsInDim S8x1x64x512 (![0, 2, 3] : Fin 3 → Fin S8x1x64x512.rank)
  bcast_S8x256x1x512_S8x256x64x512_0_1_2_3 : S8x256x1x512.BroadcastsInDim S8x256x64x512 (![0, 1, 2, 3] : Fin 4 → Fin S8x256x64x512.rank)
  bcast_S8x1x64x512_S8x256x64x512_0_1_2_3 : S8x1x64x512.BroadcastsInDim S8x256x64x512 (![0, 1, 2, 3] : Fin 4 → Fin S8x256x64x512.rank)
  bcast_S500_S1x1x1x500_3 : S500.BroadcastsInDim S1x1x1x500 (![3] : Fin 1 → Fin S1x1x1x500.rank)
  bcast_S1x1x1x500_S8x256x64x500_0_1_2_3 : S1x1x1x500.BroadcastsInDim S8x256x64x500 (![0, 1, 2, 3] : Fin 4 → Fin S8x256x64x500.rank)
  dot_S8x256x512_S512x512_S8x256x512_2_1_01_0_n_n_wf : DotDims.WF S8x256x512 S512x512 S8x256x512 [2] [1] [0, 1] [0] [] []
  dot_S8x64x512_S512x512_S8x64x512_2_1_01_0_n_n_wf : DotDims.WF S8x64x512 S512x512 S8x64x512 [2] [1] [0, 1] [0] [] []
  dot_S8x256x64x512_S500x512_S8x256x64x500_3_1_012_0_n_n_wf : DotDims.WF S8x256x64x512 S500x512 S8x256x64x500 [3] [1] [0, 1, 2] [0] [] []

variable [Facts₀]

def dot_S8x256x512_S512x512_S8x256x512_2_1_01_0_n_n : DotDims S8x256x512 S512x512 S8x256x512 where
  lhsContracting := [2]
  rhsContracting := [1]
  lhsNonContracting := [0, 1]
  rhsNonContracting := [0]
  lhsBatch := []
  rhsBatch := []
  wf := dot_S8x256x512_S512x512_S8x256x512_2_1_01_0_n_n_wf
def dot_S8x64x512_S512x512_S8x64x512_2_1_01_0_n_n : DotDims S8x64x512 S512x512 S8x64x512 where
  lhsContracting := [2]
  rhsContracting := [1]
  lhsNonContracting := [0, 1]
  rhsNonContracting := [0]
  lhsBatch := []
  rhsBatch := []
  wf := dot_S8x64x512_S512x512_S8x64x512_2_1_01_0_n_n_wf
def dot_S8x256x64x512_S500x512_S8x256x64x500_3_1_012_0_n_n : DotDims S8x256x64x512 S500x512 S8x256x64x500 where
  lhsContracting := [3]
  rhsContracting := [1]
  lhsNonContracting := [0, 1, 2]
  rhsNonContracting := [0]
  lhsBatch := []
  rhsBatch := []
  wf := dot_S8x256x64x512_S500x512_S8x256x64x500_3_1_012_0_n_n_wf

class Facts : Prop extends Facts₀ where

variable [Facts]
-- ==== Proof.LibMatmulBlock.lean ====
/-
  One block of a matrix product, entry by entry.

  A product of an m×k array by a k×n array, contracted over the left operand's second axis and the right operand's
  first, and accumulated into the all-zero array, has at entry (a, b) the value ∑_c A[a, c] · B[c, b] over the
  extended reals. The contraction's index set has one axis of extent k, so the sum over it is re-indexed by that
  axis's coordinate.
-/
import Idealize.ShloMosaic.PureOps.Ideal
import Idealize.ShloMosaic.PureOps.Ideal.Laws
import Idealize.ShloMosaic.Lib.ValueIdx

noncomputable section

namespace Cert.LibMatmulBlock

open Idealize.ShloMosaic Idealize.ShloMosaic.ValueIdx

/-- The product of an m×k block by a k×n block accumulated into the zero splat, read at entry (a, b), is the sum over
    the contracted coordinate c of A[a, c] · B[c, b]. At the ideal values; `w` is the dimension numbers'
    well-formedness, which a program states. -/
theorem matmul_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulBlock

end
-- ==== Proof.LibOuterLayout.lean ====
/-
  Layout operations read at an index given by coordinates, for the shapes an outer (pairwise) sum of two families of
  rows passes through: a family of rows [a, c] given a unit middle axis and repeated along it, a family [b, c] given a
  unit leading axis and repeated along that, the resulting [a, b, c] array flattened to [a·b, c] rows and a [a·b, c]
  array unflattened, and a vector [c] repeated over two leading axes. Each is the operand at the index the coordinates
  name; a reshape keeps an element's position in row-major order, a broadcast reads coordinate 0 on a unit axis.
-/
import Idealize.ShloMosaic.Lib.Pipeline.Value
import Idealize.ShloMosaic.Lib.ValueIdx

namespace Cert.LibOuterLayout

open Idealize.ShloMosaic Idealize.ShloMosaic.ValueIdx

variable {α : Type}

/-- An [a, c] array cast to [a, 1, c] reads, at (i, u, j), the operand at (i, j). -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    rw [Shape.rowMajor_val_two, Shape.rowMajor_val_three]
    show i.val * c + j.val = (i.val * 1 + u.val) * c + j.val
    have hu : u.val = 0 := by omega
    rw [hu, Nat.mul_one, Nat.add_zero])

/-- An [a, 1, c] array broadcast to [a, b, c] reads, at (i, u, j), the operand at (i, 0, j). -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (u : Fin b) (j : Fin c) :
    broadcastTo ⟨3, ![a, b, c]⟩ x h (ix3 i u j) = x (ix3 i (0 : Fin 1) j) := by
  refine broadcastTo_apply x h (ix3 i u j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if c = 1 then 0 else j.val
    split
    · have := j.isLt; omega
    · rfl

/-- A [1, b, c] array broadcast to [a, b, c] reads, at (i, u, j), the operand at (0, u, j). -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (u : Fin b) (j : Fin c) :
    broadcastTo ⟨3, ![a, b, c]⟩ x h (ix3 i u j) = x (ix3 (0 : Fin 1) u j) := by
  refine broadcastTo_apply x h (ix3 i u j) (ix3 (0 : Fin 1) u j) fun ax => ?_
  match ax with
  | ⟨0, _⟩ => rfl
  | ⟨1, _⟩ =>
    show u.val = if b = 1 then 0 else u.val
    split
    · have := u.isLt; omega
    · rfl
  | ⟨2, _⟩ =>
    show j.val = if c = 1 then 0 else j.val
    split
    · have := j.isLt; omega
    · rfl

/-- A [1, 1, c] array broadcast to [a, b, c] reads, at (i, u, j), the operand at (0, 0, j). -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (u : Fin b) (j : Fin c) :
    broadcastTo ⟨3, ![a, b, c]⟩ x h (ix3 i u j) = x (ix3 (0 : Fin 1) (0 : Fin 1) j) := by
  refine broadcastTo_apply x h (ix3 i u j) (ix3 (0 : Fin 1) (0 : Fin 1) j) fun ax => ?_
  match ax with
  | ⟨0, _⟩ => rfl
  | ⟨1, _⟩ => rfl
  | ⟨2, _⟩ =>
    show j.val = if c = 1 then 0 else j.val
    split
    · have := j.isLt; omega
    · rfl

/-- A [c] vector cast to [1, 1, c] reads, at (u, w, j), the operand at j. -/
theorem shapeCast_c_11c_apply {c : ℕ} (x : (⟨1, ![c]⟩ : Shape).Idx → α)
    (h : (⟨1, ![c]⟩ : Shape).ShapeCasts ⟨3, ![1, 1, c]⟩) (u w : Fin 1) (j : Fin c) :
    shapeCast ⟨3, ![1, 1, c]⟩ x h (ix3 u w j) = x (ix1 j) :=
  shapeCast_apply x h _ _ (by
    rw [Shape.rowMajor_val_one, Shape.rowMajor_val_three]
    show j.val = (u.val * 1 + w.val) * c + j.val
    have hu : u.val = 0 := by omega
    have hw : w.val = 0 := by omega
    rw [hu, hw]
    simp)

/-- An [a, b, c] array flattened to [m, c] rows reads, at (r, j) with r = i·b + u, the operand at (i, u, j). -/
theorem shapeCast_abc_mc_apply {a b c m : ℕ} (x : (⟨3, ![a, b, c]⟩ : Shape).Idx → α)
    (h : (⟨3, ![a, b, c]⟩ : Shape).ShapeCasts ⟨2, ![m, c]⟩) (i : Fin a) (u : Fin b) (j : Fin c) (r : Fin m)
    (hr : r.val = i.val * b + u.val) : shapeCast ⟨2, ![m, c]⟩ x h (ix2 r j) = x (ix3 i u j) :=
  shapeCast_apply x h _ _ (by
    rw [Shape.rowMajor_val_three, Shape.rowMajor_val_two]
    show (i.val * b + u.val) * c + j.val = r.val * c + j.val
    rw [hr])

/-- An [m, c] array of rows unflattened to [a, b, c] reads, at (i, u, j), the operand at (r, j) with r = i·b + u. -/
theorem shapeCast_mc_abc_apply {a b c m : ℕ} (x : (⟨2, ![m, c]⟩ : Shape).Idx → α)
    (h : (⟨2, ![m, c]⟩ : Shape).ShapeCasts ⟨3, ![a, b, c]⟩) (i : Fin a) (u : Fin b) (j : Fin c) (r : Fin m)
    (hr : r.val = i.val * b + u.val) : shapeCast ⟨3, ![a, b, c]⟩ x h (ix3 i u j) = x (ix2 r j) :=
  shapeCast_apply x h _ _ (by
    rw [Shape.rowMajor_val_two, Shape.rowMajor_val_three]
    show r.val * c + j.val = (i.val * b + u.val) * c + j.val
    rw [hr])

end Cert.LibOuterLayout
-- ==== Proof.JoinerSpec.lean ====
/-
  The joiner of a transducer as ONE function of its eight arrays.

  An encoder frame and a decoder frame are each projected to the joint space (a product with a weight matrix plus a bias),
  the two projections are added, passed through tanh, and projected to the vocabulary (a second product plus a bias):

    logit[n, t, u, v] = (∑ j, tanh ((∑ d, enc[n, t, d] · Wenc[j, d] + benc[j]) + (∑ d, dec[n, u, d] · Wdec[j, d] + bdec[j])) · Wout[v, j])
                          + bout[v]

  over the extended reals. One entry depends on one encoder row, one decoder row, the two projection matrices and biases,
  one row of the output matrix and one output bias: `joint` is the entry as a function of exactly those rows, and the two
  whole-array forms (`logits`: weights stored as [joint, feature] / [vocabulary, joint]; `logitsT`: weights stored
  transposed) are `joint` at the rows an index names. No law of arithmetic relates the two forms: a transpose only renames
  the entry a weight is read at.
-/
import Idealize.ShloMosaic.PureOps.Ideal
import Idealize.ShloMosaic.Lib.ValueIdx
import Idealize.ShloMosaic.Lib.ValueLayout

noncomputable section

namespace Cert.Joiner

open Idealize.ShloMosaic Idealize.ShloMosaic.ValueIdx

/-- One logit from the rows it depends on: `encRow`, `decRow` the two frames (512 features each); `wE d j`, `wD d j` the
    weight that feature `d` carries into joint coordinate `j`; `bE`, `bD` the projections' biases; `wO j` the weight joint
    coordinate `j` carries into this vocabulary entry, `bO` its bias. -/
def joint (encRow decRow : Fin 512 → EReal) (wE wD : Fin 512 → Fin 512 → EReal) (bE bD : Fin 512 → EReal)
    (wO : Fin 512 → EReal) (bO : EReal) : EReal :=
  (∑ j : Fin 512, Ideal.tanh (((∑ d : Fin 512, encRow d * wE d j) + bE j) + ((∑ d : Fin 512, decRow d * wD d j) + bD j)) * wO j) + bO

/-- The logit of batch entry `n`, encoder frame `t`, decoder frame `u`, vocabulary entry `v`, the weights stored as
    [joint, feature] and [vocabulary, joint]. -/
def logitsAt (enc : (⟨3, ![8, 256, 512]⟩ : Shape).Idx → EReal) (dec : (⟨3, ![8, 64, 512]⟩ : Shape).Idx → EReal)
    (Wenc : (⟨2, ![512, 512]⟩ : Shape).Idx → EReal) (benc : (⟨1, ![512]⟩ : Shape).Idx → EReal)
    (Wdec : (⟨2, ![512, 512]⟩ : Shape).Idx → EReal) (bdec : (⟨1, ![512]⟩ : Shape).Idx → EReal)
    (Wout : (⟨2, ![500, 512]⟩ : Shape).Idx → EReal) (bout : (⟨1, ![500]⟩ : Shape).Idx → EReal)
    (n : Fin 8) (t : Fin 256) (u : Fin 64) (v : Fin 500) : EReal :=
  joint (fun d => enc (ix3 n t d)) (fun d => dec (ix3 n u d)) (fun d j => Wenc (ix2 j d)) (fun d j => Wdec (ix2 j d))
    (fun j => benc (ix1 j)) (fun j => bdec (ix1 j)) (fun j => Wout (ix2 v j)) (bout (ix1 v))

/-- The whole [8, 256, 64, 500] array of logits. -/
def logits (enc : (⟨3, ![8, 256, 512]⟩ : Shape).Idx → EReal) (dec : (⟨3, ![8, 64, 512]⟩ : Shape).Idx → EReal)
    (Wenc : (⟨2, ![512, 512]⟩ : Shape).Idx → EReal) (benc : (⟨1, ![512]⟩ : Shape).Idx → EReal)
    (Wdec : (⟨2, ![512, 512]⟩ : Shape).Idx → EReal) (bdec : (⟨1, ![512]⟩ : Shape).Idx → EReal)
    (Wout : (⟨2, ![500, 512]⟩ : Shape).Idx → EReal) (bout : (⟨1, ![500]⟩ : Shape).Idx → EReal) :
    (⟨4, ![8, 256, 64, 500]⟩ : Shape).Idx → EReal :=
  fun i => logitsAt enc dec Wenc benc Wdec bdec Wout bout (i 0) (i 1) (i 2) (i 3)

/-- The same logit with the three weight matrices stored transposed: [feature, joint] and [joint, vocabulary]. -/
def logitsTAt (enc : (⟨3, ![8, 256, 512]⟩ : Shape).Idx → EReal) (dec : (⟨3, ![8, 64, 512]⟩ : Shape).Idx → EReal)
    (WencT : (⟨2, ![512, 512]⟩ : Shape).Idx → EReal) (benc : (⟨1, ![512]⟩ : Shape).Idx → EReal)
    (WdecT : (⟨2, ![512, 512]⟩ : Shape).Idx → EReal) (bdec : (⟨1, ![512]⟩ : Shape).Idx → EReal)
    (WoutT : (⟨2, ![512, 500]⟩ : Shape).Idx → EReal) (bout : (⟨1, ![500]⟩ : Shape).Idx → EReal)
    (n : Fin 8) (t : Fin 256) (u : Fin 64) (v : Fin 500) : EReal :=
  joint (fun d => enc (ix3 n t d)) (fun d => dec (ix3 n u d)) (fun d j => WencT (ix2 d j)) (fun d j => WdecT (ix2 d j))
    (fun j => benc (ix1 j)) (fun j => bdec (ix1 j)) (fun j => WoutT (ix2 j v)) (bout (ix1 v))

/-- The whole array, from transposed weights. -/
def logitsT (enc : (⟨3, ![8, 256, 512]⟩ : Shape).Idx → EReal) (dec : (⟨3, ![8, 64, 512]⟩ : Shape).Idx → EReal)
    (WencT : (⟨2, ![512, 512]⟩ : Shape).Idx → EReal) (benc : (⟨1, ![512]⟩ : Shape).Idx → EReal)
    (WdecT : (⟨2, ![512, 512]⟩ : Shape).Idx → EReal) (bdec : (⟨1, ![512]⟩ : Shape).Idx → EReal)
    (WoutT : (⟨2, ![512, 500]⟩ : Shape).Idx → EReal) (bout : (⟨1, ![500]⟩ : Shape).Idx → EReal) :
    (⟨4, ![8, 256, 64, 500]⟩ : Shape).Idx → EReal :=
  fun i => logitsTAt enc dec WencT benc WdecT bdec WoutT bout (i 0) (i 1) (i 2) (i 3)

/-- An index of the result named by its four coordinates reads the entry at those coordinates. -/
theorem logitsT_at (enc : (⟨3, ![8, 256, 512]⟩ : Shape).Idx → EReal) (dec : (⟨3, ![8, 64, 512]⟩ : Shape).Idx → EReal)
    (WencT : (⟨2, ![512, 512]⟩ : Shape).Idx → EReal) (benc : (⟨1, ![512]⟩ : Shape).Idx → EReal)
    (WdecT : (⟨2, ![512, 512]⟩ : Shape).Idx → EReal) (bdec : (⟨1, ![512]⟩ : Shape).Idx → EReal)
    (WoutT : (⟨2, ![512, 500]⟩ : Shape).Idx → EReal) (bout : (⟨1, ![500]⟩ : Shape).Idx → EReal)
    (i : (⟨4, ![8, 256, 64, 500]⟩ : Shape).Idx) (n : Fin 8) (t : Fin 256) (u : Fin 64) (v : Fin 500)
    (h0 : (i 0).val = n.val) (h1 : (i 1).val = t.val) (h2 : (i 2).val = u.val) (h3 : (i 3).val = v.val) :
    logitsT enc dec WencT benc WdecT bdec WoutT bout i = logitsTAt enc dec WencT benc WdecT bdec WoutT bout n t u v := by
  have e : i = ix4 n t u v := funext fun a => Fin.ext (by
    match a with
    | ⟨0, _⟩ => exact h0
    | ⟨1, _⟩ => exact h1
    | ⟨2, _⟩ => exact h2
    | ⟨3, _⟩ => exact h3)
  subst e
  rfl

/-- Weights handed over transposed give the same logit: the transpose of a matrix read at (a, b) is the matrix at (b, a). -/
theorem logitsTAt_transpose (enc : (⟨3, ![8, 256, 512]⟩ : Shape).Idx → EReal) (dec : (⟨3, ![8, 64, 512]⟩ : Shape).Idx → EReal)
    (Wenc : (⟨2, ![512, 512]⟩ : Shape).Idx → EReal) (benc : (⟨1, ![512]⟩ : Shape).Idx → EReal)
    (Wdec : (⟨2, ![512, 512]⟩ : Shape).Idx → EReal) (bdec : (⟨1, ![512]⟩ : Shape).Idx → EReal)
    (Wout : (⟨2, ![500, 512]⟩ : Shape).Idx → EReal) (bout : (⟨1, ![500]⟩ : Shape).Idx → EReal)
    (hs : (⟨2, ![512, 512]⟩ : Shape).Transposes [1, 0] ⟨2, ![512, 512]⟩)
    (ho : (⟨2, ![500, 512]⟩ : Shape).Transposes [1, 0] ⟨2, ![512, 500]⟩)
    (n : Fin 8) (t : Fin 256) (u : Fin 64) (v : Fin 500) :
    logitsTAt enc dec (transpose ⟨2, ![512, 512]⟩ [1, 0] Wenc hs) benc (transpose ⟨2, ![512, 512]⟩ [1, 0] Wdec hs) bdec
        (transpose ⟨2, ![512, 500]⟩ [1, 0] Wout ho) bout n t u v
      = logitsAt enc dec Wenc benc Wdec bdec Wout bout n t u v := by
  have hE : (fun (d j : Fin 512) => transpose ⟨2, ![512, 512]⟩ [1, 0] Wenc hs (ix2 d j)) = fun d j => Wenc (ix2 j d) :=
    funext fun d => funext fun j => transpose_ix2_apply Wenc hs d j
  have hD : (fun (d j : Fin 512) => transpose ⟨2, ![512, 512]⟩ [1, 0] Wdec hs (ix2 d j)) = fun d j => Wdec (ix2 j d) :=
    funext fun d => funext fun j => transpose_ix2_apply Wdec hs d j
  have hO : (fun (j : Fin 512) => transpose ⟨2, ![512, 500]⟩ [1, 0] Wout ho (ix2 j v)) = fun j => Wout (ix2 v j) :=
    funext fun j => transpose_ix2_apply Wout ho j v
  unfold logitsTAt logitsAt
  rw [hE, hD, hO]

/-- The whole arrays agree. -/
theorem logitsT_transpose (enc : (⟨3, ![8, 256, 512]⟩ : Shape).Idx → EReal) (dec : (⟨3, ![8, 64, 512]⟩ : Shape).Idx → EReal)
    (Wenc : (⟨2, ![512, 512]⟩ : Shape).Idx → EReal) (benc : (⟨1, ![512]⟩ : Shape).Idx → EReal)
    (Wdec : (⟨2, ![512, 512]⟩ : Shape).Idx → EReal) (bdec : (⟨1, ![512]⟩ : Shape).Idx → EReal)
    (Wout : (⟨2, ![500, 512]⟩ : Shape).Idx → EReal) (bout : (⟨1, ![500]⟩ : Shape).Idx → EReal)
    (hs : (⟨2, ![512, 512]⟩ : Shape).Transposes [1, 0] ⟨2, ![512, 512]⟩)
    (ho : (⟨2, ![500, 512]⟩ : Shape).Transposes [1, 0] ⟨2, ![512, 500]⟩) :
    logitsT enc dec (transpose ⟨2, ![512, 512]⟩ [1, 0] Wenc hs) benc (transpose ⟨2, ![512, 512]⟩ [1, 0] Wdec hs) bdec
        (transpose ⟨2, ![512, 500]⟩ [1, 0] Wout ho) bout
      = logits enc dec Wenc benc Wdec bdec Wout bout :=
  funext fun i => logitsTAt_transpose enc dec Wenc benc Wdec bdec Wout bout hs ho (i 0) (i 1) (i 2) (i 3)

end Cert.Joiner

end
-- ==== Proof.Tile.lean ====
/-
  What the kernel's body computes for one tile, entry by entry.

  At one grid point the body holds a [1, 32, 512] block of encoder frames, the [1, 64, 512] decoder frames of the same
  batch entry, the three weight matrices (stored transposed: [feature, joint] and [joint, vocabulary]) and the three
  biases. It projects the 32 encoder rows and the 64 decoder rows (a product into a zero accumulator, plus a bias row
  repeated over the rows), adds every encoder row to every decoder row (the two arrays repeated along a new unit axis),
  applies tanh, flattens the [32, 64, 512] array to 2048 rows, multiplies by the output matrix, unflattens and adds the
  output bias. The roundings to a shorter format on the way into each product are the identity on the extended reals.
  Read at (p, u, v) the result is `joint` of encoder row p, decoder row u, the matrices, and column v of the output matrix:
  a reshape keeps row-major positions, so row p·64 + u of the flattened array is the pair (p, u).
-/
import proofs.«151011_j63926293234320_1_alg».proof.Proof.Gen.KernelIdeal.Skeleton
import proofs.«151011_j63926293234320_1_alg».proof.Proof.LibMatmulBlock
import proofs.«151011_j63926293234320_1_alg».proof.Proof.LibOuterLayout
import proofs.«151011_j63926293234320_1_alg».proof.Proof.JoinerSpec
import Idealize.ShloMosaic.Lib.ValueLayout
import Idealize.ShloMosaic.PureOps.Ideal.Laws

noncomputable section

namespace Cert.Joiner

open Idealize.ShloMosaic Idealize.ShloMosaic.ValueIdx Cert.LibOuterLayout

/-- A projection: the r rows of a [1, r, 512] block times a [512, 512] matrix (into the zero accumulator) plus a bias row
    repeated over the rows, read at row p and joint coordinate j. -/
theorem proj_apply {r : ℕ} (x : FVec Ideal ⟨3, ![1, r, 512]⟩ .f32) (w : FVec Ideal ⟨2, ![512, 512]⟩ .f32)
    (b : FVec Ideal ⟨1, ![512]⟩ .f32)
    (h1 : (⟨3, ![1, r, 512]⟩ : Shape).ShapeCasts ⟨2, ![r, 512]⟩) (h2 : FTy.bits .bf16 < FTy.bits .f32)
    (h3 : (⟨2, ![512, 512]⟩ : Shape).ShapeCasts ⟨2, ![512, 512]⟩)
    (h4 : (⟨1, ![512]⟩ : Shape).ShapeCasts ⟨2, ![1, 512]⟩) (h5 : (⟨2, ![1, 512]⟩ : Shape).Broadcasts ⟨2, ![r, 512]⟩)
    (wf : DotDims.WF ⟨2, ![r, 512]⟩ ⟨2, ![512, 512]⟩ ⟨2, ![r, 512]⟩ [1] [0] [0] [1] [] [])
    (p : Fin r) (j : Fin 512) :
    addf (matmul (⟨[1], [0], [0], [1], [], [], wf⟩ : DotDims ⟨2, ![r, 512]⟩ ⟨2, ![512, 512]⟩ ⟨2, ![r, 512]⟩) none
          (truncf .bf16 (shapeCast ⟨2, ![r, 512]⟩ x h1) h2) (truncf .bf16 (shapeCast ⟨2, ![512, 512]⟩ w h3) h2)
          (constant (F := Ideal) ⟨2, ![r, 512]⟩ .f32 0x00000000#32))
        (broadcastTo ⟨2, ![r, 512]⟩ (shapeCast ⟨2, ![1, 512]⟩ b h4) h5) (ix2 p j)
      = (∑ d : Fin 512, x (ix3 (0 : Fin 1) p d) * w (ix2 d j)) + b (ix1 j) := by
  rw [addf_apply]
  refine congrArg₂ (· + ·) ?_ ?_
  · refine (Cert.LibMatmulBlock.matmul_zero_apply wf none _ _ p j).trans ?_
    refine Finset.sum_congr rfl fun d _ => ?_
    refine congrArg₂ (· * ·) ?_ ?_
    · exact shapeCast_1ab_ab_apply x h1 p d
    · exact congrFun (shapeCast_self w h3) (ix2 d j)
  · exact (broadcastTo_1b_ab_apply _ h5 p j).trans (shapeCast_a_1a_apply b h4 0 j)

/-- The activation: every encoder row added to every decoder row, through tanh, flattened to rows; read at row
    r = p·64 + u and joint coordinate j it is tanh of the sum of the two rows' entries. -/
theorem act_apply (e : FVec Ideal ⟨2, ![32, 512]⟩ .f32) (g : FVec Ideal ⟨2, ![64, 512]⟩ .f32)
    (h1 : (⟨2, ![32, 512]⟩ : Shape).ShapeCasts ⟨3, ![32, 1, 512]⟩)
    (h2 : (⟨3, ![32, 1, 512]⟩ : Shape).Broadcasts ⟨3, ![32, 64, 512]⟩)
    (h3 : (⟨2, ![64, 512]⟩ : Shape).ShapeCasts ⟨3, ![1, 64, 512]⟩)
    (h4 : (⟨3, ![1, 64, 512]⟩ : Shape).Broadcasts ⟨3, ![32, 64, 512]⟩)
    (h5 : (⟨3, ![32, 64, 512]⟩ : Shape).ShapeCasts ⟨2, ![2048, 512]⟩) (h6 : FTy.bits .bf16 < FTy.bits .f32)
    (p : Fin 32) (u : Fin 64) (j : Fin 512) (r : Fin 2048) (hr : r.val = p.val * 64 + u.val) :
    (truncf .bf16 (shapeCast ⟨2, ![2048, 512]⟩
        (tanh (addf (broadcastTo ⟨3, ![32, 64, 512]⟩ (shapeCast ⟨3, ![32, 1, 512]⟩ e h1) h2)
          (broadcastTo ⟨3, ![32, 64, 512]⟩ (shapeCast ⟨3, ![1, 64, 512]⟩ g h3) h4))) h5) h6 : FVec Ideal ⟨2, ![2048, 512]⟩ .bf16) (ix2 r j)
      = Ideal.tanh (e (ix2 p j) + g (ix2 u j)) := by
  refine (truncf_apply (ψ := .bf16) _ h6 (ix2 r j)).trans ?_
  refine (shapeCast_abc_mc_apply _ h5 p u j r hr).trans ?_
  show Ideal.tanh (broadcastTo ⟨3, ![32, 64, 512]⟩ (shapeCast ⟨3, ![32, 1, 512]⟩ e h1) h2 (ix3 p u j)
      + broadcastTo ⟨3, ![32, 64, 512]⟩ (shapeCast ⟨3, ![1, 64, 512]⟩ g h3) h4 (ix3 p u j)) = _
  rw [broadcastTo_a1c_abc_apply, broadcastTo_1bc_abc_apply, shapeCast_ac_a1c_apply, shapeCast_ab_1ab_apply]

/-- The output projection: 2048 rows times the [512, 500] output matrix (into the zero accumulator), unflattened to
    [32, 64, 500], plus the output bias repeated over the first two axes; read at (p, u, v) with r = p·64 + u. -/
theorem out_apply (a : FVec Ideal ⟨2, ![2048, 512]⟩ .bf16) (w : FVec Ideal ⟨2, ![512, 500]⟩ .f32)
    (b : FVec Ideal ⟨1, ![500]⟩ .f32)
    (h1 : (⟨2, ![512, 500]⟩ : Shape).ShapeCasts ⟨2, ![512, 500]⟩) (h2 : FTy.bits .bf16 < FTy.bits .f32)
    (h3 : (⟨2, ![2048, 500]⟩ : Shape).ShapeCasts ⟨3, ![32, 64, 500]⟩)
    (h4 : (⟨1, ![500]⟩ : Shape).ShapeCasts ⟨3, ![1, 1, 500]⟩)
    (h5 : (⟨3, ![1, 1, 500]⟩ : Shape).Broadcasts ⟨3, ![32, 64, 500]⟩)
    (wf : DotDims.WF ⟨2, ![2048, 512]⟩ ⟨2, ![512, 500]⟩ ⟨2, ![2048, 500]⟩ [1] [0] [0] [1] [] [])
    (p : Fin 32) (u : Fin 64) (v : Fin 500) (r : Fin 2048) (hr : r.val = p.val * 64 + u.val) :
    addf (shapeCast ⟨3, ![32, 64, 500]⟩
          (matmul (⟨[1], [0], [0], [1], [], [], wf⟩ : DotDims ⟨2, ![2048, 512]⟩ ⟨2, ![512, 500]⟩ ⟨2, ![2048, 500]⟩) none
            a (truncf .bf16 (shapeCast ⟨2, ![512, 500]⟩ w h1) h2) (constant (F := Ideal) ⟨2, ![2048, 500]⟩ .f32 0x00000000#32)) h3)
        (broadcastTo ⟨3, ![32, 64, 500]⟩ (shapeCast ⟨3, ![1, 1, 500]⟩ b h4) h5) (ix3 p u v)
      = (∑ j : Fin 512, a (ix2 r j) * w (ix2 j v)) + b (ix1 v) := by
  rw [addf_apply]
  refine congrArg₂ (· + ·) ?_ ?_
  · refine (shapeCast_mc_abc_apply _ h3 p u v r hr).trans ?_
    refine (Cert.LibMatmulBlock.matmul_zero_apply wf none _ _ r v).trans ?_
    refine Finset.sum_congr rfl fun j _ => ?_
    refine congrArg (a (ix2 r j) * ·) ?_
    exact congrFun (shapeCast_self w h1) (ix2 j v)
  · exact (broadcastTo_11c_abc_apply _ h5 p u v).trans (shapeCast_c_11c_apply b h4 0 0 v)

open Cert.KernelIdeal Cert.KernelIdeal.Gen in
/-- THE TILE: the body's value (the generated payload `k0_pay2` of its eight loads, in the order the body loads them:
    encoder block, encoder matrix, encoder bias, decoder block, decoder matrix, decoder bias, output matrix, output bias)
    at (p, u, v) is `joint` of the rows that entry depends on. -/
theorem tile_apply (P0 : Vec Ideal S1x32x512 .f32) (P1 : Vec Ideal S512x512 .f32) (P2 : Vec Ideal S512 .f32)
    (P3 : Vec Ideal S1x64x512 .f32) (P4 : Vec Ideal S512x512 .f32) (P5 : Vec Ideal S512 .f32)
    (P6 : Vec Ideal S512x500 .f32) (P7 : Vec Ideal S500 .f32) (p : Fin 32) (u : Fin 64) (v : Fin 500) :
    k0_pay2 (F := Ideal) P0 P1 P2 P3 P4 P5 P6 P7 (ix3 p u v)
      = joint (fun d => P0 (ix3 (0 : Fin 1) p d)) (fun d => P3 (ix3 (0 : Fin 1) u d)) (fun d j => P1 (ix2 d j))
          (fun d j => P4 (ix2 d j)) (fun j => P2 (ix1 j)) (fun j => P5 (ix1 j)) (fun j => P6 (ix2 j v)) (P7 (ix1 v)) := by
  unfold k0_pay2
  refine (out_apply _ P6 P7 _ _ _ _ _ _ p u v ⟨p.val * 64 + u.val, by omega⟩ rfl).trans ?_
  unfold joint
  refine congrArg (· + P7 (ix1 v)) (Finset.sum_congr rfl fun j _ => ?_)
  refine congrArg (· * P6 (ix2 j v)) ?_
  refine (act_apply _ _ _ _ _ _ _ _ p u j _ rfl).trans ?_
  refine congrArg Ideal.tanh (congrArg₂ (· + ·) ?_ ?_)
  · exact proj_apply P0 P1 P2 _ _ _ _ _ _ p j
  · exact proj_apply P3 P4 P5 _ _ _ _ _ _ u j

end Cert.Joiner

end
-- ==== Proof.Array.lean ====
/-
  From tiles to the whole array.

  The grid is 8 × 8: point (n, q) handles batch entry n and encoder frames 32q … 32q + 31. Its encoder block is rows
  32q … 32q + 31 of batch entry n, its decoder block all 64 frames of batch entry n, the weights and biases whole, and
  it writes back block (n, q) of the [8, 256, 64, 500] result: the element at (0, p, u, v) of the block sits at
  (n, 32q + p, u, v) of the array (a block's coordinate is block index × block size + the coordinate inside). So what
  a point writes back is the block of `logitsT` — of the argument arrays and the three transposed weight matrices the
  host prepared — that the point's index names; the 64 blocks tile the result (frame t lies in block t / 32), so the
  result array is `logitsT` of those arrays; and the transposes give `logits` of the arguments themselves.
-/
import proofs.«151011_j63926293234320_1_alg».proof.Proof.Gen.KernelIdeal.Value
import proofs.«151011_j63926293234320_1_alg».proof.Proof.Tile
import Idealize.ShloMosaic.Lib.StableHlo.Run

set_option maxRecDepth 16384

noncomputable section

namespace Cert.Joiner

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the output block, at (0, p, u, v), from the eight input blocks (in the windows' order:
    encoder block, decoder block, encoder matrix, encoder bias, decoder matrix, decoder bias, output matrix, output
    bias): `joint` of the rows the entry depends on. The body's loads read each block whole. -/
theorem out_block_apply (x0 : Vec Ideal S1x32x512 .f32) (x1 : Vec Ideal S1x64x512 .f32) (x2 : Vec Ideal S512x512 .f32)
    (x3 : Vec Ideal S512 .f32) (x4 : Vec Ideal S512x512 .f32) (x5 : Vec Ideal S512 .f32) (x6 : Vec Ideal S512x500 .f32)
    (x7 : Vec Ideal S500 .f32) (y : S1x32x64x500.Idx) (p : Fin 32) (u : Fin 64) (v : Fin 500)
    (h1 : (y 1).val = p.val) (h2 : (y 2).val = u.val) (h3 : (y 3).val = v.val) :
    out0_8 (F := Ideal) x0 x1 x2 x3 x4 x5 x6 x7 y
      = joint (fun d => x0 (ix3 (0 : Fin 1) p d)) (fun d => x1 (ix3 (0 : Fin 1) u d)) (fun d j => x2 (ix2 d j))
          (fun d j => x4 (ix2 d j)) (fun j => x3 (ix1 j)) (fun j => x5 (ix1 j)) (fun j => x6 (ix2 j v)) (x7 (ix1 v)) := by
  have hi : Cert.KernelIdeal.Value.ix8_0 y = ix3 p u v := funext fun a => Fin.ext (by
    match a with
    | ⟨0, _⟩ => exact h1
    | ⟨1, _⟩ => exact h2
    | ⟨2, _⟩ => exact h3)
  have l0 : View.ld x0 r0_0 = x0 := View.ld_unit_zero hz3 _ x0
  have l1 : View.ld x1 r0_3 = x1 := View.ld_unit_zero hz3 _ x1
  have l2 : View.ld x2 r0_1 = x2 := View.ld_unit_zero hz2 _ x2
  have l3 : View.ld x3 r0_2 = x3 := View.ld_unit_zero hz1 _ x3
  have l4 : View.ld x4 r0_1 = x4 := View.ld_unit_zero hz2 _ x4
  have l5 : View.ld x5 r0_2 = x5 := View.ld_unit_zero hz1 _ x5
  have l6 : View.ld x6 r0_4 = x6 := View.ld_unit_zero hz2 _ x6
  have l7 : View.ld x7 r0_5 = x7 := View.ld_unit_zero hz1 _ x7
  unfold out0_8
  rw [Cert.KernelIdeal.Value.canon8_eq, l0, l1, l2, l3, l4, l5, l6, l7]
  show k0_pay2 x0 x2 x3 x1 x4 x5 x6 x7 (Cert.KernelIdeal.Value.ix8_0 y) = _
  rw [hi]
  exact tile_apply x0 x2 x3 x1 x4 x5 x6 x7 p u v

/-- The printed index maps, decided once over the 64 grid points: the encoder window moves with the output window on
    the batch and frame axes, the decoder window on the batch axis only, every other window stays at block 0, and the
    output's block indices run over 8 × 8 × 1 × 1. -/
theorem idx_facts : ∀ t : Fin cfg0.N,
    win0_0.index t (0 : Fin 3) = win0_8.index t (0 : Fin 4) ∧ win0_0.index t (1 : Fin 3) = win0_8.index t (1 : Fin 4)
    ∧ win0_0.index t (2 : Fin 3) = 0
    ∧ win0_1.index t (0 : Fin 3) = win0_8.index t (0 : Fin 4) ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 4) ≤ 7 ∧ win0_8.index t (1 : Fin 4) ≤ 7
    ∧ win0_8.index t (2 : Fin 4) = 0 ∧ win0_8.index t (3 : Fin 4) = 0 :=
  (by decide +kernel : ∀ t : Fin grid0.N, _)

/-- Every (batch entry, frame block) pair is some grid point's. -/
theorem idx_onto : ∀ (q0 : Fin 8) (q1 : Fin 8), ∃ t : Fin cfg0.N, win0_8.index t = ![q0.val, q1.val, 0, 0] :=
  (by decide +kernel : ∀ (q0 : Fin 8) (q1 : Fin 8), ∃ t : Fin grid0.N, win0_8.index t = ![q0.val, q1.val, 0, 0])

/-! ## The input blocks, read where the output's block index says -/

/-- Row p, feature d of the encoder block at point t is the encoder array at (n, f, d) when the output's block at t
    starts at batch entry n and f = 32 · (its frame block) + p. -/
theorem enc_block (c : Dev nD) (t : Fin cfg0.N) (p : Fin 32) (d : Fin 512) (n : Fin 8) (f : Fin 256)
    (hn : n.val = win0_8.index t (0 : Fin 4)) (hf : f.val = win0_8.index t (1 : Fin 4) * 32 + p.val) :
    iblk m c 0 t (ix3 (0 : Fin 1) p d) = V m c main_arg0 (ix3 n f d) := by
  obtain ⟨e0, e1, e2, -⟩ := idx_facts t
  show V m c main_arg0 (((cfg0.win 0).blk t).view.emb (ix3 (0 : Fin 1) p d)) = V m c main_arg0 (ix3 n f d)
  refine congrArg (V m c main_arg0) (funext fun a => Fin.ext ?_)
  match a with
  | ⟨0, _⟩ => show win0_0.index t (0 : Fin 3) * 1 + 1 * (0 : Fin 1).val = n.val; omega
  | ⟨1, _⟩ => show win0_0.index t (1 : Fin 3) * 32 + 1 * p.val = f.val; omega
  | ⟨2, _⟩ => show win0_0.index t (2 : Fin 3) * 512 + 1 * d.val = d.val; omega

/-- Row u, feature d of the decoder block at point t is the decoder array at (n, u, d). -/
theorem dec_block (c : Dev nD) (t : Fin cfg0.N) (u : Fin 64) (d : Fin 512) (n : Fin 8)
    (hn : n.val = win0_8.index t (0 : Fin 4)) :
    iblk m c 1 t (ix3 (0 : Fin 1) u d) = V m c main_arg1 (ix3 n u d) := by
  obtain ⟨-, -, -, e0, e1, e2, -⟩ := idx_facts t
  show V m c main_arg1 (((cfg0.win 1).blk t).view.emb (ix3 (0 : Fin 1) u d)) = V m c main_arg1 (ix3 n u d)
  refine congrArg (V m c main_arg1) (funext fun a => Fin.ext ?_)
  match a with
  | ⟨0, _⟩ => show win0_1.index t (0 : Fin 3) * 1 + 1 * (0 : Fin 1).val = n.val; omega
  | ⟨1, _⟩ => show win0_1.index t (1 : Fin 3) * 64 + 1 * u.val = u.val; omega
  | ⟨2, _⟩ => show win0_1.index t (2 : Fin 3) * 512 + 1 * d.val = d.val; omega

/-- The encoder matrix's block is the whole (transposed) matrix. -/
theorem wenc_block (c : Dev nD) (t : Fin cfg0.N) (d j : Fin 512) :
    iblk m c 2 t (ix2 d j) = V m c main_v0 (ix2 d j) := by
  obtain ⟨-, -, -, -, -, -, e0, e1, -⟩ := idx_facts t
  show V m c main_v0 (((cfg0.win 2).blk t).view.emb (ix2 d j)) = V m c main_v0 (ix2 d j)
  refine congrArg (V m c main_v0) (funext fun a => Fin.ext ?_)
  match a with
  | ⟨0, _⟩ => show win0_2.index t (0 : Fin 2) * 512 + 1 * d.val = d.val; omega
  | ⟨1, _⟩ => show win0_2.index t (1 : Fin 2) * 512 + 1 * j.val = j.val; omega

/-- The encoder bias's block is the whole vector. -/
theorem benc_block (c : Dev nD) (t : Fin cfg0.N) (j : Fin 512) :
    iblk m c 3 t (ix1 j) = V m c main_arg3 (ix1 j) := by
  obtain ⟨-, -, -, -, -, -, -, -, e0, -⟩ := idx_facts t
  show V m c main_arg3 (((cfg0.win 3).blk t).view.emb (ix1 j)) = V m c main_arg3 (ix1 j)
  refine congrArg (V m c main_arg3) (funext fun a => Fin.ext ?_)
  match a with
  | ⟨0, _⟩ => show win0_3.index t (0 : Fin 1) * 512 + 1 * j.val = j.val; omega

/-- The decoder matrix's block is the whole (transposed) matrix. -/
theorem wdec_block (c : Dev nD) (t : Fin cfg0.N) (d j : Fin 512) :
    iblk m c 4 t (ix2 d j) = V m c main_v1 (ix2 d j) := by
  obtain ⟨-, -, -, -, -, -, -, -, -, e0, e1, -⟩ := idx_facts t
  show V m c main_v1 (((cfg0.win 4).blk t).view.emb (ix2 d j)) = V m c main_v1 (ix2 d j)
  refine congrArg (V m c main_v1) (funext fun a => Fin.ext ?_)
  match a with
  | ⟨0, _⟩ => show win0_4.index t (0 : Fin 2) * 512 + 1 * d.val = d.val; omega
  | ⟨1, _⟩ => show win0_4.index t (1 : Fin 2) * 512 + 1 * j.val = j.val; omega

/-- The decoder bias's block is the whole vector. -/
theorem bdec_block (c : Dev nD) (t : Fin cfg0.N) (j : Fin 512) :
    iblk m c 5 t (ix1 j) = V m c main_arg5 (ix1 j) := by
  obtain ⟨-, -, -, -, -, -, -, -, -, -, -, e0, -⟩ := idx_facts t
  show V m c main_arg5 (((cfg0.win 5).blk t).view.emb (ix1 j)) = V m c main_arg5 (ix1 j)
  refine congrArg (V m c main_arg5) (funext fun a => Fin.ext ?_)
  match a with
  | ⟨0, _⟩ => show win0_5.index t (0 : Fin 1) * 512 + 1 * j.val = j.val; omega

/-- The output matrix's block is the whole (transposed) matrix. -/
theorem wout_block (c : Dev nD) (t : Fin cfg0.N) (j : Fin 512) (v : Fin 500) :
    iblk m c 6 t (ix2 j v) = V m c main_v2 (ix2 j v) := by
  obtain ⟨-, -, -, -, -, -, -, -, -, -, -, -, e0, e1, -⟩ := idx_facts t
  show V m c main_v2 (((cfg0.win 6).blk t).view.emb (ix2 j v)) = V m c main_v2 (ix2 j v)
  refine congrArg (V m c main_v2) (funext fun a => Fin.ext ?_)
  match a with
  | ⟨0, _⟩ => show win0_6.index t (0 : Fin 2) * 512 + 1 * j.val = j.val; omega
  | ⟨1, _⟩ => show win0_6.index t (1 : Fin 2) * 500 + 1 * v.val = v.val; omega

/-- The output bias's block is the whole vector. -/
theorem bout_block (c : Dev nD) (t : Fin cfg0.N) (v : Fin 500) :
    iblk m c 7 t (ix1 v) = V m c main_arg7 (ix1 v) := by
  obtain ⟨-, -, -, -, -, -, -, -, -, -, -, -, -, -, e0, -⟩ := idx_facts t
  show V m c main_arg7 (((cfg0.win 7).blk t).view.emb (ix1 v)) = V m c main_arg7 (ix1 v)
  refine congrArg (V m c main_arg7) (funext fun a => Fin.ext ?_)
  match a with
  | ⟨0, _⟩ => show win0_7.index t (0 : Fin 1) * 500 + 1 * v.val = v.val; omega

/-! ## What a point writes back, the cover, the array -/

/-- The arrays the region finds, as `logitsT` takes them. -/
abbrev found (c : Dev nD) : S8x256x64x500.Idx → EReal :=
  logitsT (V m c main_arg0) (V m c main_arg1) (V m c main_v0) (V m c main_arg3) (V m c main_v1) (V m c main_arg5)
    (V m c main_v2) (V m c main_arg7)

/-- WHAT POINT t WRITES BACK is block t of `logitsT` of the arrays the region finds. -/
theorem flushed_eq (c : Dev nD) (t : Fin cfg0.N) :
    (dats m 0 c).flushed 8 t = ((cfg0.win 8).blk t).view.read (Elt Ideal) (found m c) := by
  rw [Cert.KernelIdeal.Value.flushed8]
  funext y
  have hy1 : (y 1).val < 32 := (y 1).isLt
  have hy2 : (y 2).val < 64 := (y 2).isLt
  have hy3 : (y 3).val < 500 := (y 3).isLt
  have hy0 : (y 0).val < 1 := (y 0).isLt
  obtain ⟨-, -, -, -, -, -, -, -, -, -, -, -, -, -, -, b0, b1, b2, b3⟩ := idx_facts t
  show out0_8 (iblk m c 0 t) (iblk m c 1 t) (iblk m c 2 t) (iblk m c 3 t) (iblk m c 4 t) (iblk m c 5 t) (iblk m c 6 t)
      (iblk m c 7 t) y = found m c (((cfg0.win 8).blk t).view.emb y)
  refine (out_block_apply _ _ _ _ _ _ _ _ y ⟨(y 1).val, hy1⟩ ⟨(y 2).val, hy2⟩ ⟨(y 3).val, hy3⟩ rfl rfl rfl).trans ?_
  refine Eq.symm ((logitsT_at _ _ _ _ _ _ _ _ (((cfg0.win 8).blk t).view.emb y)
    ⟨win0_8.index t (0 : Fin 4), by omega⟩ ⟨win0_8.index t (1 : Fin 4) * 32 + (y 1).val, by omega⟩
    ⟨(y 2).val, hy2⟩ ⟨(y 3).val, hy3⟩ ?_ ?_ ?_ ?_).trans ?_)
  · show win0_8.index t (0 : Fin 4) * 1 + 1 * (y 0).val = win0_8.index t (0 : Fin 4); omega
  · show win0_8.index t (1 : Fin 4) * 32 + 1 * (y 1).val = win0_8.index t (1 : Fin 4) * 32 + (y 1).val; omega
  · show win0_8.index t (2 : Fin 4) * 64 + 1 * (y 2).val = (y 2).val; omega
  · show win0_8.index t (3 : Fin 4) * 500 + 1 * (y 3).val = (y 3).val; omega
  unfold logitsTAt
  have r0 : (fun d : Fin 512 => V m c main_arg0 (ix3 (⟨win0_8.index t (0 : Fin 4), by omega⟩ : Fin 8)
        (⟨win0_8.index t (1 : Fin 4) * 32 + (y 1).val, by omega⟩ : Fin 256) d))
      = fun d => iblk m c 0 t (ix3 (0 : Fin 1) (⟨(y 1).val, hy1⟩ : Fin 32) d) :=
    funext fun d => (enc_block m c t ⟨(y 1).val, hy1⟩ d _ _ rfl rfl).symm
  have r1 : (fun d : Fin 512 => V m c main_arg1 (ix3 (⟨win0_8.index t (0 : Fin 4), by omega⟩ : Fin 8) (⟨(y 2).val, hy2⟩ : Fin 64) d))
      = fun d => iblk m c 1 t (ix3 (0 : Fin 1) (⟨(y 2).val, hy2⟩ : Fin 64) d) :=
    funext fun d => (dec_block m c t ⟨(y 2).val, hy2⟩ d _ rfl).symm
  have r2 : (fun d j : Fin 512 => V m c main_v0 (ix2 d j)) = fun d j => iblk m c 2 t (ix2 d j) :=
    funext fun d => funext fun j => (wenc_block m c t d j).symm
  have r3 : (fun j : Fin 512 => V m c main_arg3 (ix1 j)) = fun j => iblk m c 3 t (ix1 j) :=
    funext fun j => (benc_block m c t j).symm
  have r4 : (fun d j : Fin 512 => V m c main_v1 (ix2 d j)) = fun d j => iblk m c 4 t (ix2 d j) :=
    funext fun d => funext fun j => (wdec_block m c t d j).symm
  have r5 : (fun j : Fin 512 => V m c main_arg5 (ix1 j)) = fun j => iblk m c 5 t (ix1 j) :=
    funext fun j => (bdec_block m c t j).symm
  have r6 : (fun j : Fin 512 => V m c main_v2 (ix2 j (⟨(y 3).val, hy3⟩ : Fin 500))) = fun j => iblk m c 6 t (ix2 j (⟨(y 3).val, hy3⟩ : Fin 500)) :=
    funext fun j => (wout_block m c t j _).symm
  have r7 : V m c main_arg7 (ix1 (⟨(y 3).val, hy3⟩ : Fin 500)) = iblk m c 7 t (ix1 (⟨(y 3).val, hy3⟩ : Fin 500)) :=
    (bout_block m c t _).symm
  rw [r0, r1, r2, r3, r4, r5, r6, r7]

/-- An index of the result is in point t's block iff each coordinate is in the block's range on its axis. -/
theorem mem_blk (t : Fin cfg0.N) (i : S8x256x64x500.Idx) :
    i ∈ ((cfg0.win 8).blk t).view.set ↔ ∀ a : Fin 4, win0_8.index t a * S1x32x64x500.size a ≤ (i a).val ∧ (i a).val < win0_8.index t a * S1x32x64x500.size a + S1x32x64x500.size a := by
  show i ∈ ((View.whole main_v3).slice (win0_8.rect t)).set ↔ _
  rw [View.set_slice_whole, Rect.mem_set_unit]
  exact Iff.rfl

/-- The 64 blocks tile the result: entry (n, f, u, v) lies in the block of batch entry n and frame block f / 32. -/
theorem cover (i : S8x256x64x500.Idx) :
    ∃ t : Fin cfg0.N, (cfg0.win 8).flush t = true ∧ i ∈ ((cfg0.win 8).blk t).view.set := by
  have hi0 : (i 0).val < 8 := (i 0).isLt
  have hi1 : (i 1).val < 256 := (i 1).isLt
  have hi2 : (i 2).val < 64 := (i 2).isLt
  have hi3 : (i 3).val < 500 := (i 3).isLt
  obtain ⟨t, ht⟩ := idx_onto ⟨(i 0).val, hi0⟩ ⟨(i 1).val / 32, by omega⟩
  have q0 : win0_8.index t (0 : Fin 4) = (i 0).val := congrFun ht 0
  have q1 : win0_8.index t (1 : Fin 4) = (i 1).val / 32 := congrFun ht 1
  have q2 : win0_8.index t (2 : Fin 4) = 0 := congrFun ht 2
  have q3 : win0_8.index t (3 : Fin 4) = 0 := congrFun ht 3
  refine ⟨t, flush0_8 t, ?_⟩
  rw [mem_blk]
  intro a
  match a with
  | ⟨0, _⟩ => show win0_8.index t (0 : Fin 4) * 1 ≤ (i 0).val ∧ (i 0).val < win0_8.index t (0 : Fin 4) * 1 + 1; omega
  | ⟨1, _⟩ => show win0_8.index t (1 : Fin 4) * 32 ≤ (i 1).val ∧ (i 1).val < win0_8.index t (1 : Fin 4) * 32 + 32; omega
  | ⟨2, _⟩ => show win0_8.index t (2 : Fin 4) * 64 ≤ (i 2).val ∧ (i 2).val < win0_8.index t (2 : Fin 4) * 64 + 64; omega
  | ⟨3, _⟩ => show win0_8.index t (3 : Fin 4) * 500 ≤ (i 3).val ∧ (i 3).val < win0_8.index t (3 : Fin 4) * 500 + 500; omega

/-- The three weight matrices the region finds are the host's transposes of the arguments. -/
theorem found_wenc (c : Dev nD) :
    (V m c main_v0 : S512x512.Idx → EReal) = transpose S512x512 [1, 0] (m ((c : Thread nD τ).loc main_arg2)) transposes_S512x512_S512x512_1_0 := by
  dsimp only [V, hostOps0]; after_results
theorem found_wdec (c : Dev nD) :
    (V m c main_v1 : S512x512.Idx → EReal) = transpose S512x512 [1, 0] (m ((c : Thread nD τ).loc main_arg4)) transposes_S512x512_S512x512_1_0 := by
  dsimp only [V, hostOps0]; after_results
theorem found_wout (c : Dev nD) :
    (V m c main_v2 : S512x500.Idx → EReal) = transpose S512x500 [1, 0] (m ((c : Thread nD τ).loc main_arg6)) transposes_S500x512_S512x500_1_0 := by
  dsimp only [V, hostOps0]; after_results

/-- THE RESULT ARRAY after the run is `logits` of the argument arrays. -/
theorem final (c : Dev nD) : (dats m 0 c).arrAt 8 cfg0.N
    = logits (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  rw [(dats m 0 c).arrAt_eq_of_cover 8 (found m c) (fun t _ => flushed_eq m c t) cover]
  unfold found
  rw [found_wenc, found_wdec, found_wout, V_main_arg0, V_main_arg1, V_main_arg3, V_main_arg5, V_main_arg7]
  exact logitsT_transpose _ _ _ _ _ _ _ _ _ _

/-- The kernel's run with its result named: every weakly fair execution terminates with the result array at `logits`
    of the arguments and the arguments unchanged. -/
theorem run : θ_run defs (onTc (τ := τ) (main (F := Ideal))) ⟨m, fun _ => 0, ρ⟩ fun r => ∀ c : Dev nD,
      r.2.mem ((c : Thread nD τ).loc main_v3)
        = logits (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩)
    (Cert.KernelIdeal.Value.run_blocks m ρ)

end Cert.Joiner

end
-- ==== Proof.Reference.lean ====
/-
  The reference computes `logits`.

  The reference program is eighteen array operations: two products contracting the feature axis with a bias added
  (the bias repeated over the leading axes), the two results each given a unit axis and repeated over it, their sum,
  tanh, a product contracting the joint axis, and the output bias. Read one operation at a time at an index, each product
  is a sum over its contracted coordinate and each repetition reads the operand at the coordinates it keeps; composing
  the reads, entry (n, t, u, v) is `joint` of encoder row (n, t), decoder row (n, u), the weight matrices read at
  [joint, feature] and [vocabulary, joint], and the biases — the definition of `logitsAt`.
-/
import proofs.«151011_j63926293234320_1_alg».proof.Proof.Gen.ReferenceIdeal.Read
import proofs.«151011_j63926293234320_1_alg».proof.Proof.JoinerSpec

noncomputable section

namespace Cert.Joiner

open Idealize.ShloMosaic Idealize.ShloMosaic.ValueIdx
open Cert.ReferenceIdeal Cert.ReferenceIdeal.Read

/-- The encoder projection plus its bias, at batch entry n, frame t, joint coordinate j. -/
theorem ref_enc (x0 : (⟨S8x256x512, .f32⟩ : BufTy).Contents (Elt Ideal)) (x2 : (⟨S512x512, .f32⟩ : BufTy).Contents (Elt Ideal))
    (x3 : (⟨S512, .f32⟩ : BufTy).Contents (Elt Ideal)) (n : Fin 8) (t : Fin 256) (j : Fin 512) :
    val_main_v3 (F := Ideal) x0 x2 x3 (ix3 n t j) = (∑ d : Fin 512, x0 (ix3 n t d) * x2 (ix2 j d)) + x3 (ix1 j) := by
  have e1 : ∀ k : Fin 512, lidx_main_v0 (ix3 n t j) k = ix3 n t k := fun k => funext fun a => by
    match a with
    | ⟨0, _⟩ => rfl
    | ⟨1, _⟩ => rfl
    | ⟨2, _⟩ => rfl
  have e2 : ∀ k : Fin 512, ridx_main_v0 (ix3 n t j) k = ix2 j k := fun k => funext fun a => by
    match a with
    | ⟨0, _⟩ => rfl
    | ⟨1, _⟩ => rfl
  have e3 : idx_main_v1 (idx_main_v2 (ix3 n t j)) = ix1 j := funext fun a => by
    match a with
    | ⟨0, _⟩ => rfl
  rw [val_main_v3_apply, val_main_v0_apply, val_main_v2_apply, val_main_v1_apply, e3]
  simp only [e1, e2]
  rfl

/-- The decoder projection plus its bias, at batch entry n, frame u, joint coordinate j. -/
theorem ref_dec (x1 : (⟨S8x64x512, .f32⟩ : BufTy).Contents (Elt Ideal)) (x4 : (⟨S512x512, .f32⟩ : BufTy).Contents (Elt Ideal))
    (x5 : (⟨S512, .f32⟩ : BufTy).Contents (Elt Ideal)) (n : Fin 8) (u : Fin 64) (j : Fin 512) :
    val_main_v7 (F := Ideal) x1 x4 x5 (ix3 n u j) = (∑ d : Fin 512, x1 (ix3 n u d) * x4 (ix2 j d)) + x5 (ix1 j) := by
  have e1 : ∀ k : Fin 512, lidx_main_v4 (ix3 n u j) k = ix3 n u k := fun k => funext fun a => by
    match a with
    | ⟨0, _⟩ => rfl
    | ⟨1, _⟩ => rfl
    | ⟨2, _⟩ => rfl
  have e2 : ∀ k : Fin 512, ridx_main_v4 (ix3 n u j) k = ix2 j k := fun k => funext fun a => by
    match a with
    | ⟨0, _⟩ => rfl
    | ⟨1, _⟩ => rfl
  have e3 : idx_main_v5 (idx_main_v6 (ix3 n u j)) = ix1 j := funext fun a => by
    match a with
    | ⟨0, _⟩ => rfl
  rw [val_main_v7_apply, val_main_v4_apply, val_main_v6_apply, val_main_v5_apply, e3]
  simp only [e1, e2]
  rfl

/-- The activation at (n, t, u, j): tanh of the encoder projection at (n, t, j) plus the decoder projection at (n, u, j). -/
theorem ref_act (x0 : (⟨S8x256x512, .f32⟩ : BufTy).Contents (Elt Ideal)) (x1 : (⟨S8x64x512, .f32⟩ : BufTy).Contents (Elt Ideal))
    (x2 : (⟨S512x512, .f32⟩ : BufTy).Contents (Elt Ideal)) (x3 : (⟨S512, .f32⟩ : BufTy).Contents (Elt Ideal))
    (x4 : (⟨S512x512, .f32⟩ : BufTy).Contents (Elt Ideal)) (x5 : (⟨S512, .f32⟩ : BufTy).Contents (Elt Ideal))
    (n : Fin 8) (t : Fin 256) (u : Fin 64) (j : Fin 512) :
    val_main_v13 (F := Ideal) x0 x1 x2 x3 x4 x5 (ix4 n t u j)
      = Ideal.tanh (((∑ d : Fin 512, x0 (ix3 n t d) * x2 (ix2 j d)) + x3 (ix1 j))
          + ((∑ d : Fin 512, x1 (ix3 n u d) * x4 (ix2 j d)) + x5 (ix1 j))) := by
  have e1 : idx_main_v8 (idx_main_v10 (ix4 n t u j)) = ix3 n t j := funext fun a => by
    match a with
    | ⟨0, _⟩ => rfl
    | ⟨1, _⟩ => rfl
    | ⟨2, _⟩ => rfl
  have e2 : idx_main_v9 (idx_main_v11 (ix4 n t u j)) = ix3 n u j := funext fun a => by
    match a with
    | ⟨0, _⟩ => rfl
    | ⟨1, _⟩ => rfl
    | ⟨2, _⟩ => rfl
  rw [val_main_v13_apply, val_main_v12_apply, val_main_v10_apply, val_main_v8_apply, val_main_v11_apply,
    val_main_v9_apply, e1, e2, ref_enc, ref_dec]
  rfl

/-- THE REFERENCE IS `logits`: the last stage of the reference, as a function of the eight arguments. -/
theorem reference_eq (x0 : (⟨S8x256x512, .f32⟩ : BufTy).Contents (Elt Ideal)) (x1 : (⟨S8x64x512, .f32⟩ : BufTy).Contents (Elt Ideal))
    (x2 : (⟨S512x512, .f32⟩ : BufTy).Contents (Elt Ideal)) (x3 : (⟨S512, .f32⟩ : BufTy).Contents (Elt Ideal))
    (x4 : (⟨S512x512, .f32⟩ : BufTy).Contents (Elt Ideal)) (x5 : (⟨S512, .f32⟩ : BufTy).Contents (Elt Ideal))
    (x6 : (⟨S500x512, .f32⟩ : BufTy).Contents (Elt Ideal)) (x7 : (⟨S500, .f32⟩ : BufTy).Contents (Elt Ideal)) :
    val_main_v17 (F := Ideal) x0 x1 x2 x3 x4 x5 x6 x7 = logits x0 x1 x2 x3 x4 x5 x6 x7 := by
  funext i
  obtain ⟨n, t, u, v, rfl⟩ : ∃ (n : Fin 8) (t : Fin 256) (u : Fin 64) (v : Fin 500), i = ix4 n t u v :=
    ⟨i 0, i 1, i 2, i 3, eq_ix4 i⟩
  have e1 : ∀ k : Fin 512, lidx_main_v14 (ix4 n t u v) k = ix4 n t u k := fun k => funext fun a => by
    match a with
    | ⟨0, _⟩ => rfl
    | ⟨1, _⟩ => rfl
    | ⟨2, _⟩ => rfl
    | ⟨3, _⟩ => rfl
  have e2 : ∀ k : Fin 512, ridx_main_v14 (ix4 n t u v) k = ix2 v k := fun k => funext fun a => by
    match a with
    | ⟨0, _⟩ => rfl
    | ⟨1, _⟩ => rfl
  have e3 : idx_main_v15 (idx_main_v16 (ix4 n t u v)) = ix1 v := funext fun a => by
    match a with
    | ⟨0, _⟩ => rfl
  rw [val_main_v17_apply, val_main_v14_apply, val_main_v16_apply, val_main_v15_apply, e3]
  simp only [e1, e2, ref_act]
  rfl

end Cert.Joiner

end
-- ==== Proof.lean ====
/-
  The transducer joiner: a tiled kernel against its array reference, equal over the extended reals.

  Both programs compute, for batch entry n, encoder frame t, decoder frame u and vocabulary entry v,

    (∑ j, tanh ((∑ d, enc[n,t,d] · Wenc[j,d] + benc[j]) + (∑ d, dec[n,u,d] · Wdec[j,d] + bdec[j])) · Wout[v,j]) + bout[v]

  (`Cert.Joiner.logits`, Proof/JoinerSpec.lean). The kernel transposes the three weight matrices on the host, then
  runs an 8 × 8 grid, each point computing a [32, 64, 500] tile from 32 encoder rows and the 64 decoder rows of one
  batch entry (Proof/Tile.lean: the tile entry by entry; Proof/Array.lean: the tiles are blocks of one array, the
  blocks tile it, and the host transposes undo the transposed reads). The reference is eighteen whole-array operations
  (Proof/Reference.lean: read one operation at a time, they are the same nested sum). Every sum has the same terms on
  both sides with the same grouping of every addition, so no law of extended-real arithmetic is needed beyond
  renaming indices, and finiteness of the inputs is never used; roundings to a shorter format are the identity on the
  extended reals. The three frame claims are the generated frame runs; the idealization rewrote nothing, so
  `preserves` is trivial.
-/
import proofs.«151011_j63926293234320_1_alg».proof.Defs
import proofs.«151011_j63926293234320_1_alg».proof.Proof.Gen.Kernel
import proofs.«151011_j63926293234320_1_alg».proof.Proof.Gen.Kernel.Skeleton
import proofs.«151011_j63926293234320_1_alg».proof.Proof.Gen.Kernel.Launch
import proofs.«151011_j63926293234320_1_alg».proof.Proof.Gen.Kernel.Points
import proofs.«151011_j63926293234320_1_alg».proof.Proof.Gen.Kernel.Frame
import proofs.«151011_j63926293234320_1_alg».proof.Proof.Gen.KernelIdeal
import proofs.«151011_j63926293234320_1_alg».proof.Proof.Gen.KernelIdeal.Skeleton
import proofs.«151011_j63926293234320_1_alg».proof.Proof.Gen.KernelIdeal.Launch
import proofs.«151011_j63926293234320_1_alg».proof.Proof.Gen.KernelIdeal.Points
import proofs.«151011_j63926293234320_1_alg».proof.Proof.Gen.KernelIdeal.Frame
import proofs.«151011_j63926293234320_1_alg».proof.Proof.Gen.ReferenceIdeal
import proofs.«151011_j63926293234320_1_alg».proof.Proof.Gen.KernelIdeal.Value
import proofs.«151011_j63926293234320_1_alg».proof.Proof.Gen.ReferenceIdeal.Run
import proofs.«151011_j63926293234320_1_alg».proof.Proof.Gen.ReferenceIdeal.Read
import proofs.«151011_j63926293234320_1_alg».proof.Proof.Gen.Pre_finite_inputs
import proofs.«151011_j63926293234320_1_alg».proof.Proof.Array
import proofs.«151011_j63926293234320_1_alg».proof.Proof.Reference
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read over the extended reals. -/
theorem frame_ideal : Cert.frame_KernelIdeal := fun m ρ _ => Cert.KernelIdeal.Gen.frame m ρ

/-- So does the reference: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the eight arguments the kernel's result array ends at `logits` of its arguments
    (Proof/Array.lean) and the reference's at its last stage, which is `logits` of its arguments (Proof/Reference.lean). -/
theorem algebraic : Cert.algebraic_KernelIdeal_ReferenceIdeal := by
  intro m ρ m' ρ' _ hagree
  refine ⟨_, Cert.Joiner.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v17_eq, Cert.Joiner.reference_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
